-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x256 .f32) (main_arg1 : FVec F S256x256 .f32) (main_arg2 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x256 : Shape := ⟨2, ![50000, 256]⟩
abbrev S256x256 : Shape := ⟨2, ![256, 256]⟩
abbrev S256 : Shape := ⟨1, ![256]⟩
abbrev S1x256 : Shape := ⟨2, ![1, 256]⟩
abbrev S15000x256 : Shape := ⟨2, ![15000, 256]⟩

abbrev nBuf : Space → Nat
  | .hbm => 5
  | .vmem => 6
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S1x256, .f32⟩
  | .hbm, ⟨4, _⟩ => ⟨S50000x256, .f32⟩
  | .local _ .vmem, ⟨0, _⟩ => ⟨S15000x256, .f32⟩
  | .local _ .vmem, ⟨1, _⟩ => ⟨S15000x256, .f32⟩
  | .local _ .vmem, ⟨2, _⟩ => ⟨S256x256, .f32⟩
  | .local _ .vmem, ⟨3, _⟩ => ⟨S1x256, .f32⟩
  | .local _ .vmem, ⟨4, _⟩ => ⟨S15000x256, .f32⟩
  | .local _ .vmem, ⟨5, _⟩ => ⟨S15000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S15000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S15000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256_S1x256 : S256.ShapeCasts S1x256
  inb_S15000x256_S15000x256_0_0 : ∀ a, (![0, 0] : Fin 2 → Nat) a + S15000x256.size a ≤ S15000x256.size a
  h_S15000x256 : 0 < S15000x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S15000x256 : S1x256.Broadcasts S15000x256
  dot_S15000x256_S256x256_S15000x256_1_0_0_1_n_n_wf : DotDims.WF S15000x256 S256x256 S15000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S15000x256.size a < S50000x256.size a
  hwx0_0 : ∀ i : grid0.Coords, EltTy.bits .f32 = 32 ∨ (Rect.unit (s := S50000x256) (fun a => cc0_transform_0 i a * S15000x256.size a) (fun a => (Pipeline.Clip.of (cc0_transform_0 i a) (S15000x256.size a) (S50000x256.size a)).extent (S15000x256.size a)) fun a => Pipeline.Clip.inb (Pipeline.Clip.ok_of (hstart0_0 i a))).WholeWords (EltTy.packing .f32)
  hwxs0_0 : ∀ i : grid0.Coords, EltTy.bits .f32 = 32 ∨ (Rect.unit (s := S15000x256) (fun _ => 0) (fun a => (Pipeline.Clip.of (cc0_transform_0 i a) (S15000x256.size a) (S50000x256.size a)).extent (S15000x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S15000x256.size a < S50000x256.size a
  hwx0_3 : ∀ i : grid0.Coords, EltTy.bits .f32 = 32 ∨ (Rect.unit (s := S50000x256) (fun a => cc0_transform_3 i a * S15000x256.size a) (fun a => (Pipeline.Clip.of (cc0_transform_3 i a) (S15000x256.size a) (S50000x256.size a)).extent (S15000x256.size a)) fun a => Pipeline.Clip.inb (Pipeline.Clip.ok_of (hstart0_3 i a))).WholeWords (EltTy.packing .f32)
  hwxs0_3 : ∀ i : grid0.Coords, EltTy.bits .f32 = 32 ∨ (Rect.unit (s := S15000x256) (fun _ => 0) (fun a => (Pipeline.Clip.of (cc0_transform_3 i a) (S15000x256.size a) (S50000x256.size a)).extent (S15000x256.size a)) fun a => (Nat.zero_add _).trans_le (Pipeline.Clip.extent_le (Pipeline.Clip.ok_of (hstart0_3 i a)))).WholeWords (EltTy.packing .f32)

variable [Facts₀]

def dot_S15000x256_S256x256_S15000x256_1_0_0_1_n_n : DotDims S15000x256 S256x256 S15000x256 where
  lhsContracting := [1]
  rhsContracting := [0]
  lhsNonContracting := [0]
  rhsNonContracting := [1]
  lhsBatch := []
  rhsBatch := []
  wf := dot_S15000x256_S256x256_S15000x256_1_0_0_1_n_n_wf

abbrev win0_0 : Pipeline.Window sig grid0 :=
  Pipeline.Window.ofSpecClip (Memref.whole main_arg0) S15000x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v1) S15000x256.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S1x256 : Shape := ⟨2, ![1, 256]⟩

abbrev nBuf : Space → Nat
  | .hbm => 7
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S50000x256, .f32⟩
  | .hbm, ⟨4, _⟩ => ⟨S1x256, .f32⟩
  | .hbm, ⟨5, _⟩ => ⟨S50000x256, .f32⟩
  | .hbm, ⟨6, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x256_S256x256_S50000x256_1_0_0_1_n_n_wf : DotDims.WF S50000x256 S256x256 S50000x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.BitsStep.lean ====
/-
  One grid step of the row-tiled product at the word level: the same five memory operations as the idealized step
  — three loads of inputs, a dead load of the output block, one store over the whole output block.
-/
import proofs.«115310_g41059887350157_cont_8to1_b_1536_26_alg».proof.Proof.Gen.Kernel.Frame
import proofs.«115310_g41059887350157_cont_8to1_b_1536_26_alg».proof.Proof.Gen.Kernel.Skeleton
import Idealize.ShloMosaic.Lib.Pipeline.Value
import Idealize.ShloMosaic.Lib.Tactic

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load and the one store go through the whole staging buffer -/

abbrev rX : Rect S15000x256 := Rect.unit (s := S15000x256) ![0, 0] S15000x256.size inb_S15000x256_S15000x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-- The offsets of those rectangles are zero on both axes. -/
theorem zero2 : (![0, 0] : Fin 2 → Nat) = fun _ => 0 := funext fun a => by fin_cases a <;> rfl

/-- The one store covers the whole row block. -/
theorem cover (p0 : Vec F S15000x256 .f32) (y : S15000x256.Idx) :
    ∃ pc ∈ ([⟨rX, p0⟩] : List (View.Piece (Elt F) S15000x256 .f32)), y ∈ pc.1.set :=
  View.cover_of_tiled [⟨rX, p0⟩] S15000x256.size (by rfl) y

set_option maxHeartbeats 1000000 in
/-- One grid step: with a row block `x0`, the weight matrix `x1` and the bias row `x2` in the three input buffers
    (and anything in the output buffer), the body ends with the inputs as they were and the output buffer holding
    `x0 · x1 + x2` (the bias row repeated down the rows) — the payload `k0_pay1 x0 x1 x2`. -/
theorem sound_kernel (c : Dev nD) (E : Set ℕ) (i : grid0.Coords)
    (arg1 : Memref sig .tc .vmem S15000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S15000x256 .f32) (harg4 : arg4.IsWhole)
    (x0 : Vec F S15000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover _)).trans ?_
  rw [View.canon_unit_zero zero2]
  simp only [View.readAt_eq_ld, View.ld_unit_zero (S := S15000x256) zero2, View.ld_unit_zero (S := S256x256) zero2, View.ld_unit_zero (S := S1x256) zero2]

end Cert.Kernel.Step

end
-- ==== Proof.BitsRun.lean ====
/-
  The word-level kernel's run over its four row blocks, for the frame alone: every execution ends, nothing
  faults, and the argument arrays are unchanged. What the output holds is not named here.
-/
import proofs.«115310_g41059887350157_cont_8to1_b_1536_26_alg».proof.Proof.BitsStep
import Idealize.ShloMosaic.Lib.Pipeline.Value
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Kernel.Step

variable (m : (ℓ : Loc nD τ sig) → Buf (Elt F) ℓ) (ρ : Dev nD → PrngReg)

/-! ## The proof data -/

/-- The row block of the input at point `t` as the staging buffer holds it: the rows of the block that lie inside
    the array, and the zero word on the rows of the last block that hang over the array's end. -/
def rowsAt (c : Dev nD) (t : Fin cfg0.N) : S15000x256.Idx → Elt F .f32 :=
  win0_0.fill (grid0.coords t) (fun _ => Scalar.ofBits .f32 0#32) (iblk m c 0 t)

/-- After the body at point `t`: the input buffers hold the row block, the weight matrix and the bias row; the
    output buffer holds the product of the row block with the matrix plus the bias row. The body may use, and need
    not describe, the scoped rest and the generator register; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => rowsAt m c t
    | ⟨1, _⟩ => iblk m c 1 t
    | ⟨2, _⟩ => iblk m c 2 t
    | ⟨3, _⟩ => k0_pay1 (rowsAt m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = rowsAt m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = k0_pay1 (rowsAt m c t) (iblk m c 1 t) (iblk m c 2 t) := by dsimp only [dats]

/-! ## What the body finds in each buffer -/

/-- The row block is fetched at every point: its rows inside the array, and `d` (anything) on the overhang. -/
theorem before0_0 (c : Dev nD) (t : Fin cfg0.N) (d) :
    (dats m 0 c).before 0 t d = win0_0.fill (grid0.coords t) d (iblk m c 0 t) := by
  rw [(dats m 0 c).before_fetched 0 t (fetch0_0 t)]
  unfold Dat.fetched Dat.blockOf iblk; rw [A_eq]
/-- The weight matrix and the bias row are fetched once and found in place at every later point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- The output buffer is written back after every point, so the body finds anything in it. -/
theorem before0_3 (c : Dev nD) (t : Fin cfg0.N) (d) : (dats m 0 c).before 3 t d = d :=
  (dats m 0 c).before_out_reset 3 rfl t
    (by by_cases h0 : t.val = 0
        · exact .inl h0
        · exact .inr ⟨h0, flush0_3 _⟩) d

/-! ## The body obligation -/

/-- The frame says nothing of the output's contents, so the output window is forgotten: its buffer is handed to
    the body at anything and taken back at anything. -/
abbrev forgets : Fin 4 → Bool := fun | 0 => false | 1 => false | 2 => false | 3 => true | ⟨_ + 4, h⟩ => absurd h (Nat.not_lt.2 (Nat.le_add_left _ _))

/-- At every point the body, handed the fetched row block (anything on its overhang), the matrix, the bias row and
    an output buffer at anything, hands back the inputs as they were. -/
theorem body_obligation (c : Dev nD) :
    BodyObligationLoose (dats m 0 c) (defs₀ (F := F)) Variants.none () Set.univ forgets := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2, after0_0, after0_1, after0_2]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_0.fill (grid0.coords t) d0 (iblk m c 0 t)) (iblk m c 1 t) (iblk m c 2 t) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  have hx : win0_0.cut (grid0.coords t) (rowsAt m c t) = iblk m c 0 t := win0_0.cut_fill _ _ _
  isplitl [H0]
  · iexists d0
    rw [hx]; iexact H0
  isplitl [H1]; · iexact H1
  isplitl [H2]; · iexact H2
  iexists _; iexact H3

/-! ## The run and the frame -/

set_option backward.isDefEq.respectTransparency.types false in
/-- Every weakly fair execution of @main terminates without a fault; every input array of the pipeline ends as the
    region found it, and so does every other unscoped buffer; nothing is said of the output. -/
theorem run_main :
    θ_run defs (onTc (τ := τ) (main (F := F))) (s₀ m ρ)
      (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- The three argument arrays end as they began: the two the pipeline stages are inputs, never written; the bias
    vector bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  have h0 := (h c).1 0
  have h1 := (h c).1 1
  rw [Pipeline.RDat.ArrAt_in _ 0 rfl] at h0
  rw [Pipeline.RDat.ArrAt_in _ 1 rfl] at h1
  exact ⟨h0.trans ((A_eq m c 0).trans (V_main_arg0 m c)), h1.trans ((A_eq m c 1).trans (V_main_arg1 m c)),
    ((h c).2 main_arg2 (Pipeline.mem_restRefs_of main_arg2 (by decide) (by decide))).trans (V_main_arg2 m c)⟩

end Cert.Kernel.Run

end
-- ==== Proof.IdealStep.lean ====
/-
  One grid step of the row-tiled product, read at any float instance: the body loads a block of rows of the
  input, the whole weight matrix and the bias row, multiplies the block by the matrix from a zero accumulator, adds
  the bias row to every row of the product, and stores the result over the whole output block.
-/
import proofs.«115310_g41059887350157_cont_8to1_b_1536_26_alg».proof.Proof.Gen.KernelIdeal.Frame
import proofs.«115310_g41059887350157_cont_8to1_b_1536_26_alg».proof.Proof.Gen.KernelIdeal.Skeleton
import Idealize.ShloMosaic.Lib.Pipeline.Value
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load and the one store go through the whole staging buffer -/

abbrev rX : Rect S15000x256 := Rect.unit (s := S15000x256) ![0, 0] S15000x256.size inb_S15000x256_S15000x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-- The offsets of those rectangles are zero on both axes. -/
theorem zero2 : (![0, 0] : Fin 2 → Nat) = fun _ => 0 := funext fun a => by fin_cases a <;> rfl

/-- The one store covers the whole row block. -/
theorem cover (p0 : Vec F S15000x256 .f32) (y : S15000x256.Idx) :
    ∃ pc ∈ ([⟨rX, p0⟩] : List (View.Piece (Elt F) S15000x256 .f32)), y ∈ pc.1.set :=
  View.cover_of_tiled [⟨rX, p0⟩] S15000x256.size (by rfl) y

set_option maxHeartbeats 1000000 in
/-- One grid step: with a row block `x0`, the weight matrix `x1` and the bias row `x2` in the three input buffers
    (and anything in the output buffer), the body ends with the inputs as they were and the output buffer holding
    `x0 · x1 + x2` (the bias row repeated down the rows) — the payload `k0_pay1 x0 x1 x2`. -/
theorem sound_kernel (c : Dev nD) (E : Set ℕ) (i : grid0.Coords)
    (arg1 : Memref sig .tc .vmem S15000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S15000x256 .f32) (harg4 : arg4.IsWhole)
    (x0 : Vec F S15000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover _)).trans ?_
  rw [View.canon_unit_zero zero2]
  simp only [View.readAt_eq_ld, View.ld_unit_zero (S := S15000x256) zero2, View.ld_unit_zero (S := S256x256) zero2, View.ld_unit_zero (S := S1x256) zero2]

end Cert.KernelIdeal.Step

end
-- ==== Proof.IdealRun.lean ====
/-
  The idealized kernel's run over its four row blocks: what each staging buffer holds before and after every
  step, the step's obligation to the pipeline, and from them the run to the end with the argument arrays
  unchanged. The last block (rows 45000 to 59999) hangs over the array's 50000 rows: its fetch names only rows
  45000 to 49999, and its write-back writes only those.
-/
import proofs.«115310_g41059887350157_cont_8to1_b_1536_26_alg».proof.Proof.IdealStep
import Idealize.ShloMosaic.Lib.Pipeline.Value
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal.Step

variable (m : (ℓ : Loc nD τ sig) → Buf (Elt F) ℓ) (ρ : Dev nD → PrngReg)

/-! ## The proof data -/

/-- The row block of the input at point `t` as the staging buffer holds it: the rows of the block that lie inside
    the array, and the zero word on the rows of the last block that hang over the array's end. -/
def rowsAt (c : Dev nD) (t : Fin cfg0.N) : S15000x256.Idx → Elt F .f32 :=
  win0_0.fill (grid0.coords t) (fun _ => Scalar.ofBits .f32 0#32) (iblk m c 0 t)

/-- After the body at point `t`: the input buffers hold the row block, the weight matrix and the bias row; the
    output buffer holds the product of the row block with the matrix plus the bias row. The body may use, and need
    not describe, the scoped rest and the generator register; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => rowsAt m c t
    | ⟨1, _⟩ => iblk m c 1 t
    | ⟨2, _⟩ => iblk m c 2 t
    | ⟨3, _⟩ => k0_pay1 (rowsAt m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = rowsAt m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = k0_pay1 (rowsAt m c t) (iblk m c 1 t) (iblk m c 2 t) := by dsimp only [dats]

/-! ## What the body finds in each buffer -/

/-- The row block is fetched at every point: its rows inside the array, and `d` (anything) on the overhang. -/
theorem before0_0 (c : Dev nD) (t : Fin cfg0.N) (d) :
    (dats m 0 c).before 0 t d = win0_0.fill (grid0.coords t) d (iblk m c 0 t) := by
  rw [(dats m 0 c).before_fetched 0 t (fetch0_0 t)]
  unfold Dat.fetched Dat.blockOf iblk; rw [A_eq]
/-- The weight matrix and the bias row are fetched once and found in place at every later point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- The output buffer is written back after every point, so the body finds anything in it. -/
theorem before0_3 (c : Dev nD) (t : Fin cfg0.N) (d) : (dats m 0 c).before 3 t d = d :=
  (dats m 0 c).before_out_reset 3 rfl t
    (by by_cases h0 : t.val = 0
        · exact .inl h0
        · exact .inr ⟨h0, flush0_3 _⟩) d

/-! ## The body obligation -/

/-- Row locality of the step: the rows of the product that lie inside the array depend only on the rows of the
    row block that lie inside the array (row `r` of `x · w + b` reads row `r` of `x` and nothing else of `x`). -/
def RowLocal (F : FTy → Type) [FloatOps F] : Prop :=
  ∀ (t : Fin cfg0.N) (X X' : Vec F S15000x256 .f32) (Wm : Vec F S256x256 .f32) (bv : Vec F S1x256 .f32),
    win0_0.cut (grid0.coords t) X = win0_0.cut (grid0.coords t) X' →
    win0_3.cut (grid0.coords t) (k0_pay1 X Wm bv) = win0_3.cut (grid0.coords t) (k0_pay1 X' Wm bv)

/-- At every point the body, handed the fetched row block (anything on its overhang), the matrix, the bias row and
    an output buffer at anything, hands back the inputs as they were and the output buffer at the product plus
    bias — which, on the rows inside the array, is what the proof data names (row locality). -/
theorem body_obligation (hloc : RowLocal F) (c : Dev nD) :
    BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2, before0_3 m c t d3, after0_0, after0_1, after0_2, after0_3]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_0.fill (grid0.coords t) d0 (iblk m c 0 t)) (iblk m c 1 t) (iblk m c 2 t) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  have hx : win0_0.cut (grid0.coords t) (rowsAt m c t) = iblk m c 0 t := win0_0.cut_fill _ _ _
  have hcut : win0_0.cut (grid0.coords t) (win0_0.fill (grid0.coords t) d0 (iblk m c 0 t))
      = win0_0.cut (grid0.coords t) (rowsAt m c t) := by rw [hx]; exact win0_0.cut_fill _ _ _
  have hy : win0_3.fill (grid0.coords t) (k0_pay1 (win0_0.fill (grid0.coords t) d0 (iblk m c 0 t)) (iblk m c 1 t) (iblk m c 2 t))
      (win0_3.cut (grid0.coords t) (k0_pay1 (rowsAt m c t) (iblk m c 1 t) (iblk m c 2 t)))
      = k0_pay1 (win0_0.fill (grid0.coords t) d0 (iblk m c 0 t)) (iblk m c 1 t) (iblk m c 2 t) :=
    win0_3.fill_congr_cut _ (hloc t _ _ _ _ hcut)
  isplitl [H0]
  · iexists d0
    rw [hx]; iexact H0
  isplitl [H1]; · iexact H1
  isplitl [H2]; · iexact H2
  iexists (k0_pay1 (win0_0.fill (grid0.coords t) d0 (iblk m c 0 t)) (iblk m c 1 t) (iblk m c 2 t))
  rw [hy]; iexact H3

/-! ## The run and the frame -/

set_option backward.isDefEq.respectTransparency.types false in
/-- Every weakly fair execution of @main terminates without a fault; the output array ends at what the write-backs of
    the four points leave, the inputs and every other unscoped buffer as the region found them. -/
theorem run_main (hloc : RowLocal F) :
    θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m hloc c) (hshare := fun c => (dats m 0 c).share_full fun _ => rfl)
    (howed := fun _ _ => rfl) (V := V m) (hmain := hmain m Variants.none) (hA := A_eq m) (hΦ := fun _ _ => rfl)

/-- The three argument arrays end as they began. -/
theorem frame (hloc : RowLocal F) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ hloc)

end Cert.KernelIdeal.Run

end
-- ==== Proof.IdealPay.lean ====
/-
  The step's arithmetic at the exact reals extended by the infinities, read one entry at a time: entry (p, q) of
  the stored block is the sum over k of x(p, k) · w(k, q), plus b(q). The product starts from the zero word, which is
  the real 0; the bias row has one row, repeated down the block.
-/
import proofs.«115310_g41059887350157_cont_8to1_b_1536_26_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

local notation "D" => dot_S15000x256_S256x256_S15000x256_1_0_0_1_n_n

/-- The left operand is read at the output's row and the contraction index, -/
theorem lhs_0 (i : S15000x256.Idx) (q : dot_S15000x256_S256x256_S15000x256_1_0_0_1_n_n.contr.Idx) :
    (dot_S15000x256_S256x256_S15000x256_1_0_0_1_n_n.lhsIdx i q 0).val = (i 0).val := by
  unfold DotDims.lhsIdx
  rw [dif_neg (show ¬(0 : Fin S15000x256.rank) ∈ dot_S15000x256_S256x256_S15000x256_1_0_0_1_n_n.lhsBatch by decide), dif_pos (show (0 : Fin S15000x256.rank) ∈ dot_S15000x256_S256x256_S15000x256_1_0_0_1_n_n.lhsNonContracting by decide)]
  rfl
theorem lhs_1 (i : S15000x256.Idx) (q : dot_S15000x256_S256x256_S15000x256_1_0_0_1_n_n.contr.Idx) :
    (dot_S15000x256_S256x256_S15000x256_1_0_0_1_n_n.lhsIdx i q 1).val = (q ⟨0, by decide⟩).val :=
  dot_S15000x256_S256x256_S15000x256_1_0_0_1_n_n.lhsIdx_val_of_single rfl i q
/-- the right operand at the contraction index and the output's column. -/
theorem rhs_0 (i : S15000x256.Idx) (q : dot_S15000x256_S256x256_S15000x256_1_0_0_1_n_n.contr.Idx) :
    (dot_S15000x256_S256x256_S15000x256_1_0_0_1_n_n.rhsIdx i q 0).val = (q ⟨0, by decide⟩).val :=
  dot_S15000x256_S256x256_S15000x256_1_0_0_1_n_n.rhsIdx_val_of_single rfl i q
theorem rhs_1 (i : S15000x256.Idx) (q : dot_S15000x256_S256x256_S15000x256_1_0_0_1_n_n.contr.Idx) :
    (dot_S15000x256_S256x256_S15000x256_1_0_0_1_n_n.rhsIdx i q 1).val = (i 1).val := by
  unfold DotDims.rhsIdx
  rw [dif_neg (show ¬(1 : Fin S256x256.rank) ∈ dot_S15000x256_S256x256_S15000x256_1_0_0_1_n_n.rhsBatch by decide), dif_pos (show (1 : Fin S256x256.rank) ∈ dot_S15000x256_S256x256_S15000x256_1_0_0_1_n_n.rhsNonContracting by decide)]
  rfl

/-- The product of a row block with the matrix, from the zero accumulator, at entry (p, q): the sum over the
    shared axis. -/
theorem product_apply (X : Vec Ideal S15000x256 .f32) (Wm : Vec Ideal S256x256 .f32) (p : Fin 15000) (q : Fin 256) :
    matmul (F := Ideal) (φ₁ := .f32) (φ₂ := .f32) dot_S15000x256_S256x256_S15000x256_1_0_0_1_n_n none X Wm (constant (F := Ideal) S15000x256 .f32 0x00000000#32) (ix2 p q)
      = ∑ k : Fin 256, X (ix2 p k) * Wm (ix2 k q) := by
  simp only [matmul]
  rw [Ideal.matmul_constant_zero_apply, ← Equiv.sum_comp (ValueIdx.contrEquiv1 dot_S15000x256_S256x256_S15000x256_1_0_0_1_n_n 256 rfl rfl).symm]
  refine Finset.sum_congr rfl fun k _ => ?_
  have hk := ValueIdx.contrEquiv1_symm_val dot_S15000x256_S256x256_S15000x256_1_0_0_1_n_n 256 rfl rfl k
  have el : dot_S15000x256_S256x256_S15000x256_1_0_0_1_n_n.lhsIdx (ix2 p q) ((ValueIdx.contrEquiv1 dot_S15000x256_S256x256_S15000x256_1_0_0_1_n_n 256 rfl rfl).symm k) = ix2 p k := funext fun a => Fin.ext (by
    match a with
    | ⟨0, _⟩ => exact lhs_0 _ _
    | ⟨1, _⟩ => exact (lhs_1 _ _).trans hk)
  have er : dot_S15000x256_S256x256_S15000x256_1_0_0_1_n_n.rhsIdx (ix2 p q) ((ValueIdx.contrEquiv1 dot_S15000x256_S256x256_S15000x256_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The bias row repeated down the block, at entry (p, q): the row's entry q. -/
theorem bias_apply (bv : Vec Ideal S1x256 .f32) (p : Fin 15000) (q : Fin 256) :
    broadcastTo S15000x256 (shapeCast S1x256 bv shapeCasts_S1x256_S1x256) broadcasts_S1x256_S15000x256 (ix2 p q)
      = bv (ix2 (0 : Fin 1) q) := by
  rw [shapeCast_self]
  exact broadcastTo_apply bv broadcasts_S1x256_S15000x256 (ix2 p q) (ix2 (0 : Fin 1) q) (fun a => match a with
    | ⟨0, _⟩ => by show 0 = if (1 : Nat) = 1 then 0 else _; rw [if_pos rfl]
    | ⟨1, _⟩ => by show q.val = if (256 : Nat) = 1 then 0 else q.val; rw [if_neg (by decide)])

/-- The stored block at entry (p, q). -/
theorem pay_apply (X : Vec Ideal S15000x256 .f32) (Wm : Vec Ideal S256x256 .f32) (bv : Vec Ideal S1x256 .f32)
    (p : Fin 15000) (q : Fin 256) :
    k0_pay1 (F := Ideal) X Wm bv (ix2 p q) = (∑ k : Fin 256, X (ix2 p k) * Wm (ix2 k q)) + bv (ix2 (0 : Fin 1) q) := by
  unfold k0_pay1
  refine (ValueIdx.addf_apply _ _ _).trans ?_
  exact congrArg₂ (· + ·) (product_apply X Wm p q) (bias_apply bv p q)

end Cert.KernelIdeal.Pay

end
-- ==== Proof.Spec.lean ====
/-
  The function both programs compute, on the extended reals: an affine map applied to every row. Entry (r, q) of
  the result is the sum over k of x(r, k) · w(k, q), plus b(q).
-/
import Idealize.ShloMosaic.PureOps.Ideal
import Idealize.ShloMosaic.Lib.ValueIdx

noncomputable section

namespace Cert.Spec

open Idealize.ShloMosaic Idealize.ShloMosaic.ValueIdx

/-- Rows of `x` times `w`, plus the bias `b` on every row. -/
def affineRows (x : (⟨2, ![50000, 256]⟩ : Shape).Idx → EReal) (w : (⟨2, ![256, 256]⟩ : Shape).Idx → EReal)
    (b : (⟨1, ![256]⟩ : Shape).Idx → EReal) : (⟨2, ![50000, 256]⟩ : Shape).Idx → EReal :=
  fun i => (∑ k : Fin 256, x (ix2 (i 0) k) * w (ix2 k (i 1))) + b (ix1 (i 1))

theorem affineRows_apply (x : (⟨2, ![50000, 256]⟩ : Shape).Idx → EReal) (w : (⟨2, ![256, 256]⟩ : Shape).Idx → EReal)
    (b : (⟨1, ![256]⟩ : Shape).Idx → EReal) (r : Fin 50000) (q : Fin 256) :
    affineRows x w b (ix2 r q) = (∑ k : Fin 256, x (ix2 r k) * w (ix2 k q)) + b (ix1 q) := rfl

end Cert.Spec

end
-- ==== Proof.IdealWhole.lean ====
/-
  From row blocks to the whole array, on the extended reals. Point t of the grid handles rows 15000·t to
  15000·t + 14999; the array has 50000 rows, so the last block has only 5000 rows inside it. Row r of the product
  reads row r of the row block and nothing else of it, so what hangs over the array's end never reaches a row that is
  written back. Each written-back block is the matching block of one function of the three arguments — the affine
  map of the rows — and the four blocks' rows inside the array are exactly the array's rows.
-/
import proofs.«115310_g41059887350157_cont_8to1_b_1536_26_alg».proof.Proof.IdealRun
import proofs.«115310_g41059887350157_cont_8to1_b_1536_26_alg».proof.Proof.IdealPay
import proofs.«115310_g41059887350157_cont_8to1_b_1536_26_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.Whole

open Cert.KernelIdeal Cert.KernelIdeal.Gen Cert.KernelIdeal.Run Cert.KernelIdeal.Pay
open Idealize.ShloMosaic Idealize.ShloMosaic.TcCoe Idealize.ShloMosaic.ValueIdx Idealize.SL.Sem
open Idealize.ShloMosaic.Pipeline (Dat Cfg Window)

/-! ## A staging block filled up to a cut: the part the transfers move -/

/-- Inside the part a transfer moves, a filled block reads the moved contents, whatever filled the rest. -/
theorem fill_of_lt {sig : RefSig} {G : Pipeline.Grid} (w : Pipeline.Window sig G) {α : Type} (i : G.Coords)
    (d : w.block.Idx → α) (g : (w.xblock i).Idx → α) (j : w.block.Idx) (h : ∀ a, (j a).val < w.xsize i a) :
    w.fill i d g j = g (fun a => ⟨(j a).val, h a⟩) := by
  unfold Pipeline.Window.fill
  rw [dif_pos ((w.moved_iff i j).mpr h)]

/-- Two block contents with the same moved part agree at every entry of the moved part. -/
theorem eq_of_cut_eq {sig : RefSig} {G : Pipeline.Grid} (w : Pipeline.Window sig G) {α : Type} (i : G.Coords)
    {X X' : w.block.Idx → α} (h : w.cut i X = w.cut i X') (j : w.block.Idx) (hj : ∀ a, (j a).val < w.xsize i a) :
    X j = X' j := by
  have e1 := congrFun (w.fill_cut i X) j
  have e2 := congrFun (w.fill_cut i X') j
  rw [fill_of_lt w i _ _ j hj] at e1 e2
  rw [← e1, ← e2, h]

/-! ## The schedule, decided over the four points -/

/-- Block indices: the row windows (input rows, output rows) are at block t on the row axis; the matrix and the bias
    row are always block 0. -/
theorem sched : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Cut extents: the input and output row blocks are cut alike; all 256 columns are always moved; a block's rows
    inside the array are 15000 at points 0, 1, 2 and 5000 at point 3, never past row 50000. -/
theorem extents : ∀ t : Fin cfg0.N,
    win0_0.xsize (grid0.coords t) (0 : Fin 2) = win0_3.xsize (grid0.coords t) (0 : Fin 2)
    ∧ win0_0.xsize (grid0.coords t) (1 : Fin 2) = 256
    ∧ win0_3.xsize (grid0.coords t) (1 : Fin 2) = 256
    ∧ t.val * 15000 + win0_3.xsize (grid0.coords t) (0 : Fin 2) ≤ 50000
    ∧ win0_3.xsize (grid0.coords t) (0 : Fin 2) ≤ 15000
    ∧ (t.val < 3 → win0_3.xsize (grid0.coords t) (0 : Fin 2) = 15000)
    ∧ (t.val = 3 → win0_3.xsize (grid0.coords t) (0 : Fin 2) = 5000) :=
  (by decide +kernel : ∀ t : Fin grid0.N, _)

theorem point_lt (t : Fin cfg0.N) : t.val < 4 := lt_of_lt_of_eq t.isLt N_0

/-! ## Row locality -/

/-- Row r of the stored block reads only row r of the row block: two row blocks with the same rows inside the
    array give products with the same rows inside the array. -/
theorem rowLocal : RowLocal Ideal := by
  intro t X X' Wm bv h
  obtain ⟨e0, e1, e2, e3, e4, e5, e6⟩ := extents t
  funext y
  show k0_pay1 (F := Ideal) X Wm bv (win0_3.xinj (grid0.coords t) y) = k0_pay1 (F := Ideal) X' Wm bv (win0_3.xinj (grid0.coords t) y)
  have hy0 : (y 0).val < win0_3.xsize (grid0.coords t) (0 : Fin 2) := (y 0).isLt
  have e := eq_ix2 (n0 := 15000) (n1 := 256) (win0_3.xinj (grid0.coords t) y)
  rw [e]
  refine (pay_apply X Wm bv _ _).trans (Eq.trans ?_ (pay_apply X' Wm bv _ _).symm)
  refine congrArg (· + _) (Finset.sum_congr rfl fun k _ => ?_)
  refine congrArg (· * _) (eq_of_cut_eq win0_0 (grid0.coords t) h _ fun a => ?_)
  match a with
  | ⟨0, _⟩ =>
    show (y 0).val < win0_0.xsize (grid0.coords t) (0 : Fin 2)
    rw [e0]; exact hy0
  | ⟨1, _⟩ =>
    show k.val < win0_0.xsize (grid0.coords t) (1 : Fin 2)
    rw [e1]; exact k.isLt

variable (m : (ℓ : Loc nD τ sig) → Buf (Elt Ideal) ℓ) (ρ : Dev nD → PrngReg)

/-! ## Each input block at an entry -/

/-- Row p of the row block at point t, when inside the array, is row 15000·t + p of the input. -/
theorem rows_apply (c : Dev nD) (t : Fin cfg0.N) (p : Fin 15000) (k : Fin 256)
    (hp : p.val < win0_0.xsize (grid0.coords t) (0 : Fin 2)) (r : Fin 50000) (hr : r.val = t.val * 15000 + p.val) :
    rowsAt m c t (ix2 p k) = m ((c.tc : Thread nD τ).loc main_arg0) (ix2 r k) := by
  obtain ⟨s0, s1, -⟩ := sched t
  obtain ⟨-, e1, -⟩ := extents t
  unfold rowsAt
  rw [fill_of_lt win0_0 (grid0.coords t) _ _ (ix2 p k) (fun a => by
    match a with
    | ⟨0, _⟩ => exact hp
    | ⟨1, _⟩ => show k.val < win0_0.xsize (grid0.coords t) (1 : Fin 2); rw [e1]; exact k.isLt)]
  unfold iblk
  rw [View.read_apply]
  refine (congrArg (V m c main_arg0) (funext fun a => Fin.ext ?_)).trans (congrFun (V_main_arg0 m c) (ix2 r k))
  match a with
  | ⟨0, _⟩ => show win0_0.index t (0 : Fin 2) * 15000 + 1 * p.val = r.val; omega
  | ⟨1, _⟩ => show win0_0.index t (1 : Fin 2) * 256 + 1 * k.val = k.val; omega

/-- The matrix block is the whole matrix. -/
theorem weights_apply (c : Dev nD) (t : Fin cfg0.N) (k q : Fin 256) :
    iblk m c 1 t (ix2 k q) = m ((c.tc : Thread nD τ).loc main_arg1) (ix2 k q) := by
  obtain ⟨-, -, s2, s3, -⟩ := sched t
  unfold iblk
  rw [View.read_apply]
  refine (congrArg (V m c main_arg1) (funext fun a => Fin.ext ?_)).trans (congrFun (V_main_arg1 m c) (ix2 k q))
  match a with
  | ⟨0, _⟩ => show win0_1.index t (0 : Fin 2) * 256 + 1 * k.val = k.val; omega
  | ⟨1, _⟩ => show win0_1.index t (1 : Fin 2) * 256 + 1 * q.val = q.val; omega

/-- The bias row as the region finds it: the bias vector laid out as one row. -/
theorem bias_row (c : Dev nD) :
    (V m c main_v0 : S1x256.Idx → EReal) = shapeCast S1x256 (m ((c.tc : Thread nD τ).loc main_arg2)) shapeCasts_S256_S1x256 := by
  dsimp only [Gen.V, Gen.hostOps0]; after_results; rfl

/-- The bias block is that one row: entry q of the bias vector. -/
theorem bias_row_apply (c : Dev nD) (t : Fin cfg0.N) (q : Fin 256) :
    iblk m c 2 t (ix2 (0 : Fin 1) q) = m ((c.tc : Thread nD τ).loc main_arg2) (ix1 q) := by
  obtain ⟨-, -, -, -, s4, s5, -⟩ := sched t
  unfold iblk
  rw [View.read_apply]
  refine (congrArg (V m c main_v0) (funext fun a => Fin.ext ?_)).trans
    ((congrFun (bias_row m c) (ix2 (0 : Fin 1) q)).trans
      (shapeCast_apply _ shapeCasts_S256_S1x256 (ix2 (0 : Fin 1) q) (ix1 q) (by
        rw [Shape.rowMajor_val_one, Shape.rowMajor_val_two]
        show q.val = 0 * 256 + q.val
        omega)))
  match a with
  | ⟨0, _⟩ => show win0_2.index t (0 : Fin 2) * 1 + 1 * 0 = 0; omega
  | ⟨1, _⟩ => show win0_2.index t (1 : Fin 2) * 256 + 1 * q.val = q.val; omega

/-! ## What a point writes back -/

/-- The affine map of the three argument arrays as launched. -/
def result (c : Dev nD) : Buf (Elt Ideal) ((c.tc : Thread nD τ).loc main_v1) :=
  Cert.Spec.affineRows (m ((c.tc : Thread nD τ).loc main_arg0)) (m ((c.tc : Thread nD τ).loc main_arg1)) (m ((c.tc : Thread nD τ).loc main_arg2))

/-- The rows point t writes back are the matching rows of the affine map. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  obtain ⟨-, -, -, -, -, -, s6, s7⟩ := sched t
  obtain ⟨e0, e1, e2, e3, e4, e5, e6⟩ := extents t
  funext y
  rw [View.read_apply]
  show k0_pay1 (F := Ideal) (rowsAt m c t) (iblk m c 1 t) (iblk m c 2 t) (win0_3.xinj (grid0.coords t) y) = _
  have hy0 : (y 0).val < win0_3.xsize (grid0.coords t) (0 : Fin 2) := (y 0).isLt
  have hy1 : (y 1).val < win0_3.xsize (grid0.coords t) (1 : Fin 2) := (y 1).isLt
  have hr : t.val * 15000 + (y 0).val < 50000 := by omega
  have hq : (y 1).val < 256 := by omega
  have hp : (y 0).val < 15000 := by omega
  have ei : ((cfg0.win 3).blk t).view.emb y
      = ix2 (⟨t.val * 15000 + (y 0).val, hr⟩ : Fin 50000) (⟨(y 1).val, hq⟩ : Fin 256) := by
    funext a; apply Fin.ext
    match a with
    | ⟨0, _⟩ => show win0_3.index t (0 : Fin 2) * 15000 + 1 * (y 0).val = t.val * 15000 + (y 0).val; omega
    | ⟨1, _⟩ => show win0_3.index t (1 : Fin 2) * 256 + 1 * (y 1).val = (y 1).val; omega
  have ej : (win0_3.xinj (grid0.coords t) y : S15000x256.Idx)
      = ix2 (⟨(y 0).val, hp⟩ : Fin 15000) (⟨(y 1).val, hq⟩ : Fin 256) := by
    funext a; apply Fin.ext
    match a with
    | ⟨0, _⟩ => rfl
    | ⟨1, _⟩ => rfl
  rw [ei, ej]
  refine (pay_apply (rowsAt m c t) (iblk m c 1 t) (iblk m c 2 t) _ _).trans ?_
  unfold result
  rw [Cert.Spec.affineRows_apply, bias_row_apply]
  refine congrArg (· + _) (Finset.sum_congr rfl fun k _ => ?_)
  rw [rows_apply m c t ⟨(y 0).val, hp⟩ k (by rw [e0]; exact hy0) ⟨t.val * 15000 + (y 0).val, hr⟩ rfl, weights_apply]

/-! ## The four blocks cover the array -/

/-- An entry of the array is in point t's block iff its row is among the block's rows inside the array and its
    column among the 256. -/
theorem mem_blk (t : Fin cfg0.N) (i : S50000x256.Idx) :
    i ∈ ((cfg0.win 3).blk t).view.set ↔ ∀ a : Fin 2, win0_3.index t a * S15000x256.size a ≤ (i a).val
      ∧ (i a).val < win0_3.index t a * S15000x256.size a + win0_3.xsize (grid0.coords t) a := by
  show i ∈ ((View.whole main_v1).slice (win0_3.rect t)).set ↔ _
  rw [View.set_slice_whole, Rect.mem_set_unit]
  exact Iff.rfl

/-- Row r is in the block of point r / 15000. -/
theorem covered (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : (i 0).val / 15000 < cfg0.N := by rw [show cfg0.N = 4 from N_0]; omega
  refine ⟨⟨(i 0).val / 15000, hN⟩, flush0_3 _, ?_⟩
  obtain ⟨-, -, -, -, -, -, s6, s7⟩ := sched ⟨(i 0).val / 15000, hN⟩
  obtain ⟨e0, e1, e2, e3, e4, e5, e6⟩ := extents ⟨(i 0).val / 15000, hN⟩
  rw [mem_blk]
  intro a
  match a with
  | ⟨0, _⟩ =>
    show win0_3.index ⟨(i 0).val / 15000, hN⟩ (0 : Fin 2) * 15000 ≤ (i 0).val
      ∧ (i 0).val < win0_3.index ⟨(i 0).val / 15000, hN⟩ (0 : Fin 2) * 15000 + win0_3.xsize (grid0.coords ⟨(i 0).val / 15000, hN⟩) (0 : Fin 2)
    have ht : (⟨(i 0).val / 15000, hN⟩ : Fin cfg0.N).val = (i 0).val / 15000 := rfl
    rw [ht] at s6 e3 e5 e6
    omega
  | ⟨1, _⟩ =>
    show win0_3.index ⟨(i 0).val / 15000, hN⟩ (1 : Fin 2) * 256 ≤ (i 1).val
      ∧ (i 1).val < win0_3.index ⟨(i 0).val / 15000, hN⟩ (1 : Fin 2) * 256 + win0_3.xsize (grid0.coords ⟨(i 0).val / 15000, hN⟩) (1 : Fin 2)
    omega

/-! ## The array after the run -/

/-- The result array ends holding the affine map of the arguments. -/
theorem final (c : Dev nD) : (dats m 0 c).arrAt 3 cfg0.N = result m c :=
  (dats m 0 c).arrAt_eq_of_cover 3 (result m c) (fun t _ => flushed_eq m c t) covered

/-- Every weakly fair execution of the idealized kernel terminates, without a fault, with the result array at the
    affine map of the argument arrays and the argument arrays unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ rowLocal)

end Cert.KernelIdeal.Whole

end
-- ==== Proof.RefSide.lean ====
/-
  The reference computes the affine map: its matrix product is the sum over the shared axis, the bias vector is laid
  out as one row and repeated down the rows, and the two are added entry by entry.
-/
import proofs.«115310_g41059887350157_cont_8to1_b_1536_26_alg».proof.Proof.Gen.ReferenceIdeal.Read
import proofs.«115310_g41059887350157_cont_8to1_b_1536_26_alg».proof.Proof.Spec

noncomputable section

namespace Cert.ReferenceIdeal.RefValue

open Cert.ReferenceIdeal Cert.ReferenceIdeal.Read Idealize.ShloMosaic Idealize.ShloMosaic.ValueIdx

/-- The reference's result, entry by entry, is the affine map of its three arguments. -/
theorem ref_eq (x0 : (⟨S50000x256, .f32⟩ : BufTy).Contents (Elt Ideal)) (x1 : (⟨S256x256, .f32⟩ : BufTy).Contents (Elt Ideal))
    (x2 : (⟨S256, .f32⟩ : BufTy).Contents (Elt Ideal)) :
    val_main_v3 (F := Ideal) x0 x1 x2 = Cert.Spec.affineRows x0 x1 x2 := by
  funext i
  have el : ∀ k : Fin 256, lidx_main_v0 i k = ix2 (i 0) k := fun k => funext fun a => Fin.ext (by
    match a with | ⟨0, _⟩ => rfl | ⟨1, _⟩ => rfl)
  have er : ∀ k : Fin 256, ridx_main_v0 i k = ix2 k (i 1) := fun k => funext fun a => Fin.ext (by
    match a with | ⟨0, _⟩ => rfl | ⟨1, _⟩ => rfl)
  have eb : idx_main_v1 (idx_main_v2 i) = ix1 (i 1) := funext fun a => Fin.ext (by
    match a with | ⟨0, _⟩ => rfl)
  rw [val_main_v3_apply, val_main_v0_apply, val_main_v2_apply, val_main_v1_apply]
  simp only [el, er, eb]
  rfl

end Cert.ReferenceIdeal.RefValue

end
-- ==== Proof.lean ====
/-
  y = x · W + b over x : f32[50000, 256], W : f32[256, 256], b : f32[256].

  The kernel walks the rows in four blocks of 15000 (the last has 5000 rows inside the array); at each block it
  multiplies the block by W from a zero accumulator and adds b to every row. The reference multiplies all of x by W
  and adds b, repeated down the rows. On the extended reals both give, at entry (r, q), the sum over k of
  x(r, k) · W(k, q), plus b(q): the zero accumulator is the real 0, a change of tiling does not change a row's sum,
  and no entry of the result depends on a row other than its own — so the rows that hang over the end of the
  array in the last block never reach a row that is written back. No law that needs finiteness is used.

  The three frames: the word-level kernel and the idealized kernel run to the end without a fault and leave x, W
  and b as they were (the pipeline only reads x and W; b bypasses the region, which stages a one-row copy of it);
  the reference is four host operations. The idealization rewrote nothing, so there is nothing to preserve.
-/
import proofs.«115310_g41059887350157_cont_8to1_b_1536_26_alg».proof.Defs
import proofs.«115310_g41059887350157_cont_8to1_b_1536_26_alg».proof.Proof.Gen.Kernel
import proofs.«115310_g41059887350157_cont_8to1_b_1536_26_alg».proof.Proof.Gen.KernelIdeal
import proofs.«115310_g41059887350157_cont_8to1_b_1536_26_alg».proof.Proof.Gen.ReferenceIdeal
import proofs.«115310_g41059887350157_cont_8to1_b_1536_26_alg».proof.Proof.Gen.Pre_finite_inputs
import proofs.«115310_g41059887350157_cont_8to1_b_1536_26_alg».proof.Proof.Gen.ReferenceIdeal.Run
import proofs.«115310_g41059887350157_cont_8to1_b_1536_26_alg».proof.Proof.Gen.ReferenceIdeal.Read
import proofs.«115310_g41059887350157_cont_8to1_b_1536_26_alg».proof.Proof.BitsRun
import proofs.«115310_g41059887350157_cont_8to1_b_1536_26_alg».proof.Proof.IdealWhole
import proofs.«115310_g41059887350157_cont_8to1_b_1536_26_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Run.frame (F := Bits) m ρ

/-- So does the idealized kernel. -/
theorem frame_ki : Cert.frame_KernelIdeal := fun m ρ _ =>
  Cert.KernelIdeal.Run.frame (F := Ideal) m ρ Cert.KernelIdeal.Whole.rowLocal

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x, W and b, both programs end with the result at the affine map of x, W and b. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
